-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8x1024x1024 : Shape := ⟨3, ![8, 1024, 1024]⟩
abbrev S8x1024 : Shape := ⟨2, ![8, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4096x1024 .f32) (main_arg1 : FVec F S8x1024x1024 .f32) (main_arg2 : FVec F S8x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  main_v13
-- ==== Kernel.lean ====
abbrev S4096x1024 : Shape := ⟨2, ![4096, 1024]⟩
abbrev S8x1024x1024 : Shape := ⟨3, ![8, 1024, 1024]⟩
abbrev S8x1024 : Shape := ⟨2, ![8, 1024]⟩
abbrev S8192x1024 : Shape := ⟨2, ![8192, 1024]⟩
abbrev S1x8192 : Shape := ⟨2, ![1, 8192]⟩
abbrev S4096x8192 : Shape := ⟨2, ![4096, 8192]⟩
abbrev S128x1024 : Shape := ⟨2, ![128, 1024]⟩
abbrev S128x8192 : Shape := ⟨2, ![128, 8192]⟩
abbrev S4096x8x1024 : Shape := ⟨3, ![4096, 8, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S8192x1024, .f32⟩
  | .hbm, ⟨4, _⟩ => ⟨S8192x1024, .bf16⟩
  | .hbm, ⟨5, _⟩ => ⟨S1x8192, .f32⟩
  | .hbm, ⟨6, _⟩ => ⟨S4096x8192, .f32⟩
  | .hbm, ⟨7, _⟩ => ⟨S4096x8x1024, .f32⟩
  | .local _ .vmem, ⟨0, _⟩ => ⟨S128x1024, .f32⟩
  | .local _ .vmem, ⟨1, _⟩ => ⟨S128x1024, .f32⟩
  | .local _ .vmem, ⟨2, _⟩ => ⟨S8192x1024, .bf16⟩
  | .local _ .vmem, ⟨3, _⟩ => ⟨S1x8192, .f32⟩
  | .local _ .vmem, ⟨4, _⟩ => ⟨S128x8192, .f32⟩
  | .local _ .vmem, ⟨5, _⟩ => ⟨S128x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x1024x1024_S8192x1024 : S8x1024x1024.ShapeCasts S8192x1024
  bitsLt_bf16_f32 : FTy.bits .bf16 < FTy.bits .f32
  shapeCasts_S8x1024_S1x8192 : S8x1024.ShapeCasts S1x8192
  inb_S128x1024_S128x1024_0_0 : ∀ a, (![0, 0] : Fin 2 → Nat) a + S128x1024.size a ≤ S128x1024.size a
  h_S128x1024 : 0 < S128x1024.numel
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  shapeCasts_S4096x8192_S4096x8x1024 : S4096x8192.ShapeCasts S4096x8x1024
  dot_S128x1024_S8192x1024_S128x8192_1_1_0_0_n_n_wf : DotDims.WF S128x1024 S8192x1024 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S4096x8192.size a
  hwx0_3 : ∀ i : grid0.Coords, EltTy.bits .f32 = 32 ∨ (Rect.block (s := S4096x8192) S128x8192.size (cc0_transform_3 i) (hinb0_3 i)).WholeWords (EltTy.packing .f32)

variable [Facts₀]

def dot_S128x1024_S8192x1024_S128x8192_1_1_0_0_n_n : DotDims S128x1024 S8192x1024 S128x8192 where
  lhsContracting := [1]
  rhsContracting := [1]
  lhsNonContracting := [0]
  rhsNonContracting := [0]
  lhsBatch := []
  rhsBatch := []
  wf := dot_S128x1024_S8192x1024_S128x8192_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S8x1024x1024 : Shape := ⟨3, ![8, 1024, 1024]⟩
abbrev S8x1024 : Shape := ⟨2, ![8, 1024]⟩
abbrev S4096x8x1024 : Shape := ⟨3, ![4096, 8, 1024]⟩
abbrev S1x8x1024 : Shape := ⟨3, ![1, 8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S4096x8x1024, .f32⟩
  | .hbm, ⟨4, _⟩ => ⟨S1x8x1024, .f32⟩
  | .hbm, ⟨5, _⟩ => ⟨S4096x8x1024, .f32⟩
  | .hbm, ⟨6, _⟩ => ⟨S4096x8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x1024_S1x8x1024_1_2 : S8x1024.BroadcastsInDim S1x8x1024 (![1, 2] : Fin 2 → Fin S1x8x1024.rank)
  bcast_S1x8x1024_S4096x8x1024_0_1_2 : S1x8x1024.BroadcastsInDim S4096x8x1024 (![0, 1, 2] : Fin 3 → Fin S4096x8x1024.rank)
  dot_S4096x1024_S8x1024x1024_S4096x8x1024_1_2_0_01_n_n_wf : DotDims.WF S4096x1024 S8x1024x1024 S4096x8x1024 [1] [2] [0] [0, 1] [] []

variable [Facts₀]

def dot_S4096x1024_S8x1024x1024_S4096x8x1024_1_2_0_01_n_n : DotDims S4096x1024 S8x1024x1024 S4096x8x1024 where
  lhsContracting := [1]
  rhsContracting := [2]
  lhsNonContracting := [0]
  rhsNonContracting := [0, 1]
  lhsBatch := []
  rhsBatch := []
  wf := dot_S4096x1024_S8x1024x1024_S4096x8x1024_1_2_0_01_n_n_wf

class Facts : Prop extends Facts₀ where

variable [Facts]
-- ==== Proof.Spec.lean ====
/-
  The specification. A bank of eight linear maps, every one of them applied to every row of one batch:

      out[r, e, o] = Σ_k x[r, k] · w[e, o, k] + b[e, o]      (r < 4096, e < 8, o < 1024, k < 1024)

  over the extended reals. Two programs compute it. One contracts x against the rank-3 bank directly. The other first
  lays the bank out as a matrix of 8·1024 rows, row e·1024 + o being w[e, o, ·], and the bias as one row of 8·1024
  entries, entry e·1024 + o being b[e, o]; computes the flat product out'[r, j] = Σ_k x[r, k] · w'[j, k] + b'[0, j];
  and reads out'[r, e·1024 + o] as out[r, e, o]. Both re-layouts keep the row-major position of every entry, so the two
  are the same function index by index: no law of arithmetic is used, not even a reordering of the sum.
-/
import Idealize.ShloMosaic.PureOps.Ideal
import Idealize.ShloMosaic.Lib.ValueIdx
import Idealize.ShloMosaic.Lib.Pipeline.Value

noncomputable section

open scoped BigOperators

namespace Cert.Ensemble

open Idealize.ShloMosaic Idealize.ShloMosaic.ValueIdx

/-- The batch: 4096 rows of 1024 features. -/
abbrev SRows : Shape := ⟨2, ![4096, 1024]⟩
/-- The bank: 8 maps, each 1024 outputs by 1024 features. -/
abbrev SBank : Shape := ⟨3, ![8, 1024, 1024]⟩
/-- The biases: one per map and output. -/
abbrev SBias : Shape := ⟨2, ![8, 1024]⟩
/-- The result: per row, per map, per output. -/
abbrev SOut : Shape := ⟨3, ![4096, 8, 1024]⟩
/-- The bank as one matrix of 8·1024 rows. -/
abbrev SBankFlat : Shape := ⟨2, ![8192, 1024]⟩
/-- The biases as one row of 8·1024 entries. -/
abbrev SBiasFlat : Shape := ⟨2, ![1, 8192]⟩
/-- The result with the map and output axes merged. -/
abbrev SOutFlat : Shape := ⟨2, ![4096, 8192]⟩

/-- The result, index by index: row r of x against row (e, o) of the bank, plus the bias of (e, o). -/
def ensemble (x : SRows.Idx → EReal) (w : SBank.Idx → EReal) (b : SBias.Idx → EReal) : SOut.Idx → EReal :=
  fun i => (∑ k : Fin 1024, x (ix2 (i 0) k) * w (ix3 (i 1) (i 2) k)) + b (ix2 (i 1) (i 2))

/-- The flat product: row r of x against row j of a flat bank, plus entry j of a flat bias row. -/
def ensembleFlat (x : SRows.Idx → EReal) (wf : SBankFlat.Idx → EReal) (bf : SBiasFlat.Idx → EReal) : SOutFlat.Idx → EReal :=
  fun i => (∑ k : Fin 1024, x (ix2 (i 0) k) * wf (ix2 (i 1) k)) + bf (ix2 (0 : Fin 1) (i 1))

/-- The merged position of map e, output o: e·1024 + o. -/
def col (e : Fin 8) (o : Fin 1024) : Fin 8192 := ⟨e.val * 1024 + o.val, by have := e.isLt; have := o.isLt; omega⟩

theorem col_val (e : Fin 8) (o : Fin 1024) : (col e o).val = e.val * 1024 + o.val := rfl

/-- Row e·1024 + o of the flat bank is row (e, o) of the bank: the same row-major position. -/
theorem bankFlat_apply (w : SBank.Idx → EReal) (h : SBank.ShapeCasts SBankFlat) (e : Fin 8) (o k : Fin 1024) :
    shapeCast SBankFlat w h (ix2 (col e o) k) = w (ix3 e o k) :=
  shapeCast_apply w h (ix2 (col e o) k) (ix3 e o k) (by
    rw [Shape.rowMajor_val_three, Shape.rowMajor_val_two]
    show (e.val * 1024 + o.val) * 1024 + k.val = (e.val * 1024 + o.val) * 1024 + k.val
    rfl)

/-- Entry e·1024 + o of the flat bias row is the bias of (e, o). -/
theorem biasFlat_apply (b : SBias.Idx → EReal) (h : SBias.ShapeCasts SBiasFlat) (e : Fin 8) (o : Fin 1024) :
    shapeCast SBiasFlat b h (ix2 (0 : Fin 1) (col e o)) = b (ix2 e o) :=
  shapeCast_apply b h (ix2 (0 : Fin 1) (col e o)) (ix2 e o) (by
    rw [Shape.rowMajor_val_two, Shape.rowMajor_val_two]
    show e.val * 1024 + o.val = 0 * 8192 + (e.val * 1024 + o.val)
    omega)

/-- The flat product of the flat bank and the flat bias row, with its columns split back into (map, output), is the
    result: entry (r, e, o) is the flat entry (r, e·1024 + o), whose bank row and bias entry are those of (e, o). -/
theorem ensemble_of_flat (x : SRows.Idx → EReal) (w : SBank.Idx → EReal) (b : SBias.Idx → EReal)
    (hw : SBank.ShapeCasts SBankFlat) (hb : SBias.ShapeCasts SBiasFlat) (ho : SOutFlat.ShapeCasts SOut) :
    shapeCast SOut (ensembleFlat x (shapeCast SBankFlat w hw) (shapeCast SBiasFlat b hb)) ho = ensemble x w b := by
  funext i
  obtain ⟨r, e, o, rfl⟩ : ∃ (r : Fin 4096) (e : Fin 8) (o : Fin 1024), i = ix3 r e o := ⟨i 0, i 1, i 2, eq_ix3 i⟩
  rw [shapeCast_apply _ ho (ix3 r e o) (ix2 r (col e o)) (by
    rw [Shape.rowMajor_val_three, Shape.rowMajor_val_two]
    show r.val * 8192 + (e.val * 1024 + o.val) = (r.val * 8 + e.val) * 1024 + o.val
    omega)]
  show (∑ k : Fin 1024, x (ix2 r k) * shapeCast SBankFlat w hw (ix2 (col e o) k)) + shapeCast SBiasFlat b hb (ix2 (0 : Fin 1) (col e o))
    = (∑ k : Fin 1024, x (ix2 r k) * w (ix3 e o k)) + b (ix2 e o)
  rw [biasFlat_apply]
  simp only [bankFlat_apply]

end Cert.Ensemble

end
-- ==== Proof.RefValue.lean ====
/-
  The reference computes the specification. Its four host operations, read at an index (r, e, o):
  the contraction of x's axis 1 with the bank's axis 2 is Σ_k x[r, k] · w[e, o, k]; the bias, given a leading unit axis and
  then repeated along the batch, reads b[e, o] whatever r is; their sum is the specification at (r, e, o), term for term.
-/
import proofs.«140941_j26946624815474_2_alg».proof.Proof.Gen.ReferenceIdeal.Read
import proofs.«140941_j26946624815474_2_alg».proof.Proof.Spec

noncomputable section

open scoped BigOperators

namespace Cert.Ensemble.Ref

open Cert.ReferenceIdeal Cert.ReferenceIdeal.Read Idealize.ShloMosaic Idealize.ShloMosaic.ValueIdx

/-- The contraction's left operand index at (r, e, o), k is (r, k). -/
theorem lhs_index (i : S4096x8x1024.Idx) (k : Fin 1024) : lidx_main_v0 i k = ix2 (i 0) k :=
  funext fun a => Fin.ext (by match a with | ⟨0, _⟩ => rfl | ⟨1, _⟩ => rfl)

/-- Its right operand index is (e, o, k). -/
theorem rhs_index (i : S4096x8x1024.Idx) (k : Fin 1024) : ridx_main_v0 i k = ix3 (i 1) (i 2) k :=
  funext fun a => Fin.ext (by match a with | ⟨0, _⟩ => rfl | ⟨1, _⟩ => rfl | ⟨2, _⟩ => rfl)

/-- The bias read through both broadcasts at (r, e, o) is the bias of (e, o). -/
theorem bias_index (i : S4096x8x1024.Idx) : idx_main_v1 (idx_main_v2 i) = ix2 (i 1) (i 2) :=
  funext fun a => Fin.ext (by match a with | ⟨0, _⟩ => rfl | ⟨1, _⟩ => rfl)

/-- The reference's result, as a function of its three arguments, is the specification. -/
theorem reference_eq (x : (⟨S4096x1024, .f32⟩ : BufTy).Contents (Elt Ideal)) (w : (⟨S8x1024x1024, .f32⟩ : BufTy).Contents (Elt Ideal))
    (b : (⟨S8x1024, .f32⟩ : BufTy).Contents (Elt Ideal)) :
    val_main_v3 (F := Ideal) x w b = Cert.Ensemble.ensemble x w b := by
  funext i
  rw [val_main_v3_apply, val_main_v0_apply, val_main_v2_apply, val_main_v1_apply]
  simp only [lhs_index, rhs_index, bias_index, Ideal.addf_def]
  rfl

end Cert.Ensemble.Ref

end
-- ==== Proof.Body.lean ====
/-
  The kernel body at one grid point, read at an index. From its three loaded blocks — 128 rows of x, the whole flat bank, the
  flat bias row — the body stores  X · Wᵀ + bias row:  the product contracts the second axis of both operands into a zero
  accumulator, so entry (p, j) is Σ_k X[p, k] · W[j, k]; the bias row [1, 8192] is repeated over the 128 rows, so entry (p, j)
  gets bias[0, j]. The change of float format on X and the two casts to the same shape are the identity on extended reals.
-/
import proofs.«140941_j26946624815474_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Ensemble.Body

open Cert.KernelIdeal Cert.KernelIdeal.Gen Idealize.ShloMosaic Idealize.ShloMosaic.ValueIdx

/-- The body's product: X's axis 1 against W's axis 1, rows of X and rows of W kept. -/
abbrev prod : DotDims S128x1024 S8192x1024 S128x8192 := dot_S128x1024_S8192x1024_S128x8192_1_1_0_0_n_n

/-- The left operand's row is the output's row. -/
theorem lhs_row (i : S128x8192.Idx) (q : prod.contr.Idx) : (prod.lhsIdx i q 0).val = (i 0).val := by
  unfold DotDims.lhsIdx
  rw [dif_neg (show ¬(0 : Fin S128x1024.rank) ∈ prod.lhsBatch by decide), dif_pos (show (0 : Fin S128x1024.rank) ∈ prod.lhsNonContracting by decide)]
  rfl

/-- The left operand's column is the contracted position. -/
theorem lhs_contr (i : S128x8192.Idx) (q : prod.contr.Idx) : (prod.lhsIdx i q 1).val = (q ⟨0, by decide⟩).val :=
  prod.lhsIdx_val_of_single rfl i q

/-- The right operand's row is the output's column. -/
theorem rhs_row (i : S128x8192.Idx) (q : prod.contr.Idx) : (prod.rhsIdx i q 0).val = (i 1).val := by
  unfold DotDims.rhsIdx
  rw [dif_neg (show ¬(0 : Fin S8192x1024.rank) ∈ prod.rhsBatch by decide), dif_pos (show (0 : Fin S8192x1024.rank) ∈ prod.rhsNonContracting by decide)]
  rfl

/-- The right operand's column is the contracted position. -/
theorem rhs_contr (i : S128x8192.Idx) (q : prod.contr.Idx) : (prod.rhsIdx i q 1).val = (q ⟨0, by decide⟩).val :=
  prod.rhsIdx_val_of_single rfl i q

/-- The product into the zero accumulator at (p, j): Σ_k X[p, k] · W[j, k]. -/
theorem prod_apply (X : FVec Ideal S128x1024 .bf16) (W : FVec Ideal S8192x1024 .bf16) (p : Fin 128) (j : Fin 8192) :
    matmul (F := Ideal) prod none X W (constant (F := Ideal) S128x8192 .f32 0x00000000#32) (ix2 p j)
      = ∑ k : Fin 1024, X (ix2 p k) * W (ix2 j k) := by
  simp only [matmul]
  rw [Ideal.matmul_constant_zero_apply, ← Equiv.sum_comp (contrEquiv1 prod 1024 rfl rfl).symm]
  refine Finset.sum_congr rfl fun k _ => ?_
  have hk := contrEquiv1_symm_val prod 1024 rfl rfl k
  have el : prod.lhsIdx (ix2 p j) ((contrEquiv1 prod 1024 rfl rfl).symm k) = ix2 p k := funext fun a => Fin.ext (by
    match a with
    | ⟨0, _⟩ => exact lhs_row _ _
    | ⟨1, _⟩ => exact (lhs_contr _ _).trans hk)
  have er : prod.rhsIdx (ix2 p j) ((contrEquiv1 prod 1024 rfl rfl).symm k) = ix2 j k := funext fun a => Fin.ext (by
    match a with
    | ⟨0, _⟩ => exact rhs_row _ _
    | ⟨1, _⟩ => exact (rhs_contr _ _).trans hk)
  rw [el, er]

/-- What the body stores, at (p, j), from the blocks it loaded: Σ_k X[p, k] · W[j, k] + bias[0, j]. -/
theorem payload_apply (X : Vec Ideal S128x1024 .f32) (W : Vec Ideal S8192x1024 .bf16) (B : Vec Ideal S1x8192 .f32)
    (p : Fin 128) (j : Fin 8192) :
    k0_pay1 (F := Ideal) X W B (ix2 p j) = (∑ k : Fin 1024, X (ix2 p k) * W (ix2 j k)) + B (ix2 (0 : Fin 1) j) := by
  unfold k0_pay1
  rw [shapeCast_self, shapeCast_self]
  refine (addf_apply _ _ (ix2 p j)).trans ?_
  rw [broadcastTo_1b_ab_apply]
  exact congrArg (· + B (ix2 (0 : Fin 1) j)) (prod_apply (truncf .bf16 X bitsLt_bf16_f32) W p j)

end Cert.Ensemble.Body

end
-- ==== Proof.Blocks.lean ====
/-
  From what each grid point writes back to the whole output array. The grid has 32 points; point t stages rows
  128·t … 128·t + 127 of x, the whole flat bank and the whole flat bias row (the same block at every point), and writes back
  rows 128·t … 128·t + 127 of the flat result, all 8192 columns. Entry (p, j) of that block is the body's payload at (p, j) of
  those blocks, which is the flat product's entry (128·t + p, j) of the arrays as the region finds them. The 32 row bands
  tile the array — row r lies in band r / 128 — so after the last point the array holds the flat product everywhere.
-/
import proofs.«140941_j26946624815474_2_alg».proof.Proof.Gen.KernelIdeal.Frame
import proofs.«140941_j26946624815474_2_alg».proof.Proof.Body
import proofs.«140941_j26946624815474_2_alg».proof.Proof.Spec
import Idealize.ShloMosaic.Lib.Pipeline.Value

noncomputable section

open scoped BigOperators

namespace Cert.Ensemble.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The flat product of the arrays the region finds: its rows, its flat bank, its flat bias row. -/
abbrev flatResult (c : Dev nD) : S4096x8192.Idx → EReal :=
  Cert.Ensemble.ensembleFlat (V m c main_arg0) (V m c main_v1) (V m c main_v2)

/-- The printed index maps over the grid: the rows' band moves with the output's band; the bank and the bias row are one
    block; the output's band number is the point's, below 32, and it has one column block. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every band is some point's. -/
theorem index_onto : ∀ q : Fin 32, ∃ t : Fin cfg0.N, win0_3.index t = ![q.val, 0] :=
  (by decide +kernel : ∀ q : Fin 32, ∃ t : Fin grid0.N, win0_3.index t = ![q.val, 0])

/-- Entry (p, k) of the rows' block at point t is the array's entry at row band·128 + p, column k. -/
theorem rows_block (c : Dev nD) (t : Fin cfg0.N) (p : Fin 128) (k : Fin 1024) (i : S4096x1024.Idx)
    (h0 : (i 0).val = win0_3.index t (0 : Fin 2) * 128 + p.val) (h1 : (i 1).val = k.val) :
    (iblk m c 0 t : Vec Ideal S128x1024 .f32) (ix2 p k) = (V m c main_arg0 : S4096x1024.Idx → EReal) i := by
  obtain ⟨e00, e01, -⟩ := index_facts t
  unfold iblk
  rw [View.read_apply]
  show V m c main_arg0 _ = V m c main_arg0 _
  congr 1
  funext a
  apply Fin.ext
  match a with
  | ⟨0, _⟩ => show win0_0.index t (0 : Fin 2) * 128 + 1 * p.val = (i 0).val; omega
  | ⟨1, _⟩ => show win0_0.index t (1 : Fin 2) * 1024 + 1 * k.val = (i 1).val; omega

/-- The bank's block at any point is the whole flat bank. -/
theorem bank_block (c : Dev nD) (t : Fin cfg0.N) (j : Fin 8192) (k : Fin 1024) :
    (iblk m c 1 t : Vec Ideal S8192x1024 .bf16) (ix2 j k) = (V m c main_v1 : S8192x1024.Idx → EReal) (ix2 j k) := by
  obtain ⟨-, -, e10, e11, -⟩ := index_facts t
  unfold iblk
  rw [View.read_apply]
  show V m c main_v1 _ = V m c main_v1 _
  congr 1
  funext a
  apply Fin.ext
  match a with
  | ⟨0, _⟩ => show win0_1.index t (0 : Fin 2) * 8192 + 1 * j.val = j.val; omega
  | ⟨1, _⟩ => show win0_1.index t (1 : Fin 2) * 1024 + 1 * k.val = k.val; omega

/-- The bias row's block at any point is the whole flat bias row. -/
theorem bias_block (c : Dev nD) (t : Fin cfg0.N) (j : Fin 8192) :
    (iblk m c 2 t : Vec Ideal S1x8192 .f32) (ix2 (0 : Fin 1) j) = (V m c main_v2 : S1x8192.Idx → EReal) (ix2 (0 : Fin 1) j) := by
  obtain ⟨-, -, -, -, e20, e21, -⟩ := index_facts t
  unfold iblk
  rw [View.read_apply]
  show V m c main_v2 _ = V m c main_v2 _
  congr 1
  funext a
  apply Fin.ext
  match a with
  | ⟨0, _⟩ => show win0_2.index t (0 : Fin 2) * 1 + 1 * 0 = 0; omega
  | ⟨1, _⟩ => show win0_2.index t (1 : Fin 2) * 8192 + 1 * j.val = j.val; omega

/-- What point t writes back is its band of the flat product. -/
theorem flushed_eq (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after0_3]
  unfold out0_3
  rw [View.canon_unit_zero zero_offsets]
  simp only [View.ld_unit_zero (S := S128x1024) zero_offsets, View.ld_unit_zero (S := S8192x1024) zero_offsets,
    View.ld_unit_zero (S := S1x8192) zero_offsets]
  obtain ⟨-, -, -, -, -, -, e30, e31⟩ := index_facts t
  funext y
  obtain ⟨p, j, rfl⟩ : ∃ (p : Fin 128) (j : Fin 8192), y = ix2 p j := ⟨y 0, y 1, eq_ix2 y⟩
  have hr : win0_3.index t (0 : Fin 2) * 128 + p.val < 4096 := by have := p.isLt; omega
  have hemb : ((cfg0.win 3).blk t).view.emb (ix2 p j) = ix2 (⟨win0_3.index t (0 : Fin 2) * 128 + p.val, hr⟩ : Fin 4096) j :=
    funext fun a => Fin.ext (by
      match a with
      | ⟨0, _⟩ => show win0_3.index t (0 : Fin 2) * 128 + 1 * p.val = win0_3.index t (0 : Fin 2) * 128 + p.val; omega
      | ⟨1, _⟩ => show win0_3.index t (1 : Fin 2) * 8192 + 1 * j.val = j.val; omega)
  show k0_pay1 (iblk m c 0 t) (iblk m c 1 t) (iblk m c 2 t) (ix2 p j) = flatResult m c (((cfg0.win 3).blk t).view.emb (ix2 p j))
  rw [hemb]
  refine (Body.payload_apply (iblk m c 0 t) (iblk m c 1 t) (iblk m c 2 t) p j).trans ?_
  exact congrArg₂ (· + ·)
    (Finset.sum_congr rfl fun k _ => congrArg₂ (· * ·) (rows_block m c t p k (ix2 ⟨_, hr⟩ k) rfl rfl) (bank_block m c t j k))
    (bias_block m c t j)

/-- An index of the output array is in point t's block iff each coordinate is in the block's range on its axis. -/
theorem mem_block (t : Fin cfg0.N) (i : S4096x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v3).slice (win0_3.rect t)).set ↔ _
  rw [View.set_slice_whole, Rect.mem_set_unit]
  exact Iff.rfl

/-- The 32 bands cover the array: row r is in band r / 128. -/
theorem covered (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := index_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 8192 ≤ (i 1).val ∧ (i 1).val < win0_3.index t (1 : Fin 2) * 8192 + 8192; omega

/-- The output array after the last point: the flat product of the arrays the region finds. -/
theorem final_flat (c : Dev nD) : (dats m 0 c).arrAt 3 cfg0.N = flatResult m c :=
  (dats m 0 c).arrAt_eq_of_cover 3 (flatResult m c) (fun t _ => flushed_eq m c t) covered

end Cert.Ensemble.Blocks

end
-- ==== Proof.HostSide.lean ====
/-
  The host lines around the region, read as values. Before the region the bank is re-laid as a matrix of 8·1024 rows (and
  its float format changed, which is the identity on extended reals) and the biases as one row of 8·1024 entries: these are
  the arrays the region's second and third windows stage. After the region the flat result [4096, 8·1024] is re-laid as
  [4096, 8, 1024]: the result buffer holds that re-layout of whatever the region left in its output array.
-/
import proofs.«140941_j26946624815474_2_alg».proof.Proof.Gen.KernelIdeal.Frame
import Idealize.ShloMosaic.Lib.StableHlo.Run
import Idealize.ShloMosaic.PureOps.Ideal

noncomputable section

namespace Cert.Ensemble.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array the second window stages: the bank, re-laid flat. -/
theorem bank_as_found (c : Dev nD) :
    (V m c main_v1 : S8192x1024.Idx → EReal)
      = shapeCast S8192x1024 (m ((c : Thread nD τ).loc main_arg1) : S8x1024x1024.Idx → EReal) shapeCasts_S8x1024x1024_S8192x1024 := by
  show StableHlo.after hostOps0 (fun b => m (c, b)) (Proc.devRef .tc main_v1) = _
  after_results
  rfl

/-- The array the third window stages: the biases, re-laid as one row. -/
theorem bias_as_found (c : Dev nD) :
    (V m c main_v2 : S1x8192.Idx → EReal)
      = shapeCast S1x8192 (m ((c : Thread nD τ).loc main_arg2) : S8x1024.Idx → EReal) shapeCasts_S8x1024_S1x8192 := by
  show StableHlo.after hostOps0 (fun b => m (c, b)) (Proc.devRef .tc main_v2) = _
  after_results
  rfl

/-- The result buffer after the trailing line: the region's output array, with its columns split into (map, output). -/
theorem result_after_tail (c : Dev nD) :
    (Pipeline.afterTail₀ cfgs (dats m) 0 (V0 m) [hostOps1] c main_v4 : S4096x8x1024.Idx → EReal)
      = shapeCast S4096x8x1024 ((dats m 0 c).arrAt 3 cfg0.N : S4096x8192.Idx → EReal) shapeCasts_S4096x8192_S4096x8x1024 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w (cfgs 0).N) 3
  rw [e]
  rfl

end Cert.Ensemble.Host

end
-- ==== Proof.KernelRun.lean ====
/-
  The idealized kernel's run, read as a value. After the region the output array holds the flat product of x, the flat bank
  and the flat bias row; the trailing line splits its columns into (map, output); the flat bank and bias row are re-layouts
  of the arguments that keep row-major positions. So the result buffer ends at the specification of the three arguments as
  launched, and the arguments end unchanged.
-/
import proofs.«140941_j26946624815474_2_alg».proof.Proof.Gen.KernelIdeal.Frame
import proofs.«140941_j26946624815474_2_alg».proof.Proof.Blocks
import proofs.«140941_j26946624815474_2_alg».proof.Proof.HostSide
import proofs.«140941_j26946624815474_2_alg».proof.Proof.Spec

noncomputable section

namespace Cert.Ensemble.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer after the whole program: the specification of the arguments. -/
theorem result_eq (c : Dev nD) :
    (Pipeline.afterTail₀ cfgs (dats m) 0 (V0 m) [hostOps1] c main_v4 : S4096x8x1024.Idx → EReal)
      = Cert.Ensemble.ensemble (m ((c : Thread nD τ).loc main_arg0)) (m ((c : Thread nD τ).loc main_arg1)) (m ((c : Thread nD τ).loc main_arg2)) := by
  rw [Cert.Ensemble.Host.result_after_tail, Cert.Ensemble.Blocks.final_flat]
  show shapeCast S4096x8x1024 (Cert.Ensemble.ensembleFlat (V m c main_arg0) (V m c main_v1) (V m c main_v2)) _ = _
  rw [V_main_arg0, Cert.Ensemble.Host.bank_as_found, Cert.Ensemble.Host.bias_as_found]
  exact Cert.Ensemble.ensemble_of_flat _ _ _ _ _ _

/-- Every weakly fair execution of the idealized kernel ends with the result buffer at the specification of the arguments
    and the arguments as launched. -/
theorem run : θ_run defs (onTc (τ := τ) (main (F := Ideal))) ⟨m, fun _ => 0, ρ⟩ fun r => ∀ c : Dev nD,
      r.2.mem ((c.tc : Thread nD τ).loc main_v4)
        = Cert.Ensemble.ensemble (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Ensemble.Kernel

end
-- ==== Proof.lean ====
/-
  The claim: a tiled kernel that applies a bank of eight 1024×1024 linear maps to a batch of 4096 rows, against its plain
  array reference, over the extended reals.

      out[r, e, o] = Σ_k x[r, k] · w[e, o, k] + b[e, o]

  The reference contracts x with the rank-3 bank in one step and adds the bias repeated along the batch. The kernel lays the
  bank out as a matrix of 8·1024 rows and the bias as one row of 8·1024 entries, runs 32 grid points — each multiplying a
  band of 128 rows of x by the transposed flat bank into a zero accumulator and adding the bias row — and splits the flat
  result's columns back into (map, output). Every re-layout keeps the row-major position of every entry, each band of the
  flat result depends only on the same band of x, and the bands tile the array; so index by index the two programs form the
  same sum of the same products in the same order, plus the same bias. No law of arithmetic is needed, and so neither is the
  finiteness of the inputs: the two results are equal at every extended-real input.

  Spec       the specification, its flat form, and that the re-layouts carry one to the other
  RefValue   the reference's four operations read at an index are the specification
  Body       what the kernel body stores, at an index, from the blocks it loaded
  HostSide   the arrays the region stages after the leading re-layouts, and the result buffer after the trailing one
  Blocks     each point writes back its band of the flat product; the bands cover the output array
  KernelRun  the idealized kernel's run ends at the specification of its arguments
-/
import proofs.«140941_j26946624815474_2_alg».proof.Defs
import proofs.«140941_j26946624815474_2_alg».proof.Proof.Gen.Kernel
import proofs.«140941_j26946624815474_2_alg».proof.Proof.Gen.Kernel.Skeleton
import proofs.«140941_j26946624815474_2_alg».proof.Proof.Gen.Kernel.Launch
import proofs.«140941_j26946624815474_2_alg».proof.Proof.Gen.Kernel.Points
import proofs.«140941_j26946624815474_2_alg».proof.Proof.Gen.Kernel.Frame
import proofs.«140941_j26946624815474_2_alg».proof.Proof.Gen.KernelIdeal
import proofs.«140941_j26946624815474_2_alg».proof.Proof.Gen.KernelIdeal.Skeleton
import proofs.«140941_j26946624815474_2_alg».proof.Proof.Gen.KernelIdeal.Launch
import proofs.«140941_j26946624815474_2_alg».proof.Proof.Gen.KernelIdeal.Points
import proofs.«140941_j26946624815474_2_alg».proof.Proof.Gen.KernelIdeal.Frame
import proofs.«140941_j26946624815474_2_alg».proof.Proof.Gen.ReferenceIdeal
import proofs.«140941_j26946624815474_2_alg».proof.Proof.Gen.ReferenceIdeal.Run
import proofs.«140941_j26946624815474_2_alg».proof.Proof.Gen.ReferenceIdeal.Read
import proofs.«140941_j26946624815474_2_alg».proof.Proof.Gen.Pre_finite_inputs
import proofs.«140941_j26946624815474_2_alg».proof.Proof.RefValue
import proofs.«140941_j26946624815474_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, both idealized programs end with the result buffer at the
    specification of those arguments: the kernel by its run read through the bands and the re-layouts, the reference by its
    four operations read at an index. -/
theorem algebraic : Cert.algebraic_KernelIdeal_ReferenceIdeal := by
  intro m ρ m' ρ' _ hagree
  refine ⟨fun c => Cert.Ensemble.ensemble (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Ensemble.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Ensemble.Ref.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
